-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S4096x1024 : Shape := ⟨2, ![4096, 1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S2048x4x1024 .f32) (main_arg1 : FVec F S4096x1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S2048x4x1024 : Shape := ⟨3, ![2048, 4, 1024]⟩
abbrev S4096x1024 : Shape := ⟨2, ![4096, 1024]⟩
abbrev S8192x1024 : Shape := ⟨2, ![8192, 1024]⟩
abbrev S8192x4096 : Shape := ⟨2, ![8192, 4096]⟩
abbrev S512x1024 : Shape := ⟨2, ![512, 1024]⟩
abbrev S1024x1024 : Shape := ⟨2, ![1024, 1024]⟩
abbrev S2048x4x4096 : Shape := ⟨3, ![2048, 4, 4096]⟩

abbrev nBuf : Space → Nat
  | .hbm => 7
  | .vmem => 6
  | .smem => 0
  | _ => 0

abbrev bufTy : (tb : Table) → Fin (tcTables nBuf tb) → BufTy
  | .hbm, ⟨0, _⟩ => ⟨S2048x4x1024, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S8192x4096, .f32⟩
  | .hbm, ⟨6, _⟩ => ⟨S2048x4x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2048x4x1024_S8192x1024 : S2048x4x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S2048x4x4096 : S8192x4096.ShapeCasts S2048x4x4096
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x4x1024 : Shape := ⟨3, ![2048, 4, 1024]⟩
abbrev S4096x1024 : Shape := ⟨2, ![4096, 1024]⟩
abbrev S2048x4x4096 : Shape := ⟨3, ![2048, 4, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S4096x1024, .f32⟩
  | .hbm, ⟨2, _⟩ => ⟨S2048x4x4096, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x4x1024_S4096x1024_S2048x4x4096_2_1_01_0_n_n_wf : DotDims.WF S2048x4x1024 S4096x1024 S2048x4x4096 [2] [1] [0, 1] [0] [] []

variable [Facts₀]

def dot_S2048x4x1024_S4096x1024_S2048x4x4096_2_1_01_0_n_n : DotDims S2048x4x1024 S4096x1024 S2048x4x4096 where
  lhsContracting := [2]
  rhsContracting := [1]
  lhsNonContracting := [0, 1]
  rhsNonContracting := [0]
  lhsBatch := []
  rhsBatch := []
  wf := dot_S2048x4x1024_S4096x1024_S2048x4x4096_2_1_01_0_n_n_wf

class Facts : Prop extends Facts₀ where

variable [Facts]
-- ==== Proof.Spec.lean ====
/-
  The function both programs compute: a linear layer without bias,

      out[s, b, o] = Σ_h x[s, b, h] · w[o, h]      (s < 2048, b < 4, o < 4096, h < 1024)

  read over the extended reals. The kernel reaches it through the flattened row form: with r = 4 s + b the row of the
  [8192, 1024] matrix a[r, h] = x[s, b, h], the [8192, 4096] product rows a w [r, o] = Σ_h a[r, h] · w[o, h], unflattened
  again by r ↦ (r / 4, r % 4). Both flattenings keep the row-major position, so the two forms agree term by term:
  no law of arithmetic is used, only which entry sits where.
-/
import Idealize.ShloMosaic.Lib.ValueIdx
import Idealize.ShloMosaic.Lib.Pipeline.Value

noncomputable section

open scoped BigOperators

namespace Cert.Linear

open Idealize.ShloMosaic Idealize.ShloMosaic.ValueIdx

/-- The activations [s, b, h]. -/
abbrev SX : Shape := ⟨3, ![2048, 4, 1024]⟩
/-- The weights [o, h]. -/
abbrev SW : Shape := ⟨2, ![4096, 1024]⟩
/-- The activations with (s, b) flattened to one row axis. -/
abbrev SA : Shape := ⟨2, ![8192, 1024]⟩
/-- The product over flattened rows [r, o]. -/
abbrev SM : Shape := ⟨2, ![8192, 4096]⟩
/-- The result [s, b, o]. -/
abbrev SO : Shape := ⟨3, ![2048, 4, 4096]⟩

/-- The linear layer: entry (s, b, o) is the sum over h of x[s, b, h] · w[o, h]. -/
def linear (x : SX.Idx → EReal) (w : SW.Idx → EReal) : SO.Idx → EReal :=
  fun i => ∑ k : Fin 1024, x (ix3 (i 0) (i 1) k) * w (ix2 (i 2) k)

/-- The same contraction over a matrix of rows: entry (r, o) is the sum over h of a[r, h] · w[o, h]. -/
def rows (a : SA.Idx → EReal) (w : SW.Idx → EReal) : SM.Idx → EReal :=
  fun j => ∑ k : Fin 1024, a (ix2 (j 0) k) * w (ix2 (j 1) k)

/-- Flattening (s, b) to the row 4 s + b, contracting row by row, and unflattening is the linear layer: entry (s, b, o) of
    the unflattened product is entry (4 s + b, o) of the product, whose h-th term reads a[4 s + b, h] = x[s, b, h]. -/
theorem unflatten_rows (x : SX.Idx → EReal) (w : SW.Idx → EReal) (h1 : SX.ShapeCasts SA) (h2 : SM.ShapeCasts SO) :
    shapeCast SO (rows (shapeCast SA x h1) w) h2 = linear x w := by
  funext i
  obtain ⟨s, b, o, rfl⟩ : ∃ (s : Fin 2048) (b : Fin 4) (o : Fin 4096), i = ix3 s b o := ⟨i 0, i 1, i 2, eq_ix3 i⟩
  have hr : s.val * 4 + b.val < 8192 := by have := s.isLt; have := b.isLt; omega
  rw [shapeCast_apply (rows (shapeCast SA x h1) w) h2 (ix3 s b o) (ix2 ⟨s.val * 4 + b.val, hr⟩ o) (by
    rw [Shape.rowMajor_val_two, Shape.rowMajor_val_three]; rfl)]
  unfold rows linear
  refine Finset.sum_congr rfl fun k _ => ?_
  refine congrArg₂ (· * ·) ?_ rfl
  exact shapeCast_apply x h1 _ _ (by rw [Shape.rowMajor_val_two, Shape.rowMajor_val_three]; rfl)

end Cert.Linear

end
-- ==== Proof.RefIsLinear.lean ====
/-
  The reference's one operation, a dot_general contracting the activations' last axis with the weights' last axis, is the
  linear layer: read at (s, b, o) it is the sum over h of x[s, b, h] · w[o, h], with the operands' indices spelt by their
  coordinates.
-/
import proofs.«114056_j46909632807570_1_alg».proof.Proof.Gen.ReferenceIdeal.Read
import proofs.«114056_j46909632807570_1_alg».proof.Proof.Spec

noncomputable section

open scoped BigOperators

namespace Cert.ReferenceIdeal.RefValue

open Cert.ReferenceIdeal Cert.ReferenceIdeal.Read Idealize.ShloMosaic Idealize.ShloMosaic.ValueIdx

/-- The reference's result, as a function of its two arguments, is the linear layer. -/
theorem val_eq_linear (x : (⟨S2048x4x1024, .f32⟩ : BufTy).Contents (Elt Ideal)) (w : (⟨S4096x1024, .f32⟩ : BufTy).Contents (Elt Ideal)) :
    val_main_v0 (F := Ideal) x w = Cert.Linear.linear x w := by
  funext i
  rw [val_main_v0_apply]
  unfold Cert.Linear.linear
  refine Finset.sum_congr rfl fun k _ => ?_
  have el : lidx_main_v0 i k = ix3 (i 0) (i 1) k := funext fun a => by
    match a with | ⟨0, _⟩ => rfl | ⟨1, _⟩ => rfl | ⟨2, _⟩ => rfl
  have er : ridx_main_v0 i k = ix2 (i 2) k := funext fun a => by
    match a with | ⟨0, _⟩ => rfl | ⟨1, _⟩ => rfl
  rw [el, er]
  rfl

end Cert.ReferenceIdeal.RefValue

end
-- ==== Proof.Payload.lean ====
/-
  What the kernel body computes at one grid point: the [512, 1024] block of activations' rows times the transpose of the
  [1024, 1024] block of weights' rows, accumulated from zero. Entry (p, q) of the result is the sum over h of
  a[p, h] · b[q, h]: both operands are contracted along their second axis.
-/
import proofs.«114056_j46909632807570_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The block product's dimension numbers: both operands contracted on axis 1, rows on axis 0. -/
abbrev blockDot := dot_S512x1024_S1024x1024_S512x1024_1_1_0_0_n_n

/-- The left operand's row is the result's row. -/
theorem lhs_row (j : S512x1024.Idx) (u : blockDot.contr.Idx) : (blockDot.lhsIdx j u 0).val = (j 0).val := by
  unfold DotDims.lhsIdx
  rw [dif_neg (show ¬(0 : Fin S512x1024.rank) ∈ blockDot.lhsBatch by decide),
    dif_pos (show (0 : Fin S512x1024.rank) ∈ blockDot.lhsNonContracting by decide)]
  rfl
/-- The left operand's column is the contraction index. -/
theorem lhs_col (j : S512x1024.Idx) (u : blockDot.contr.Idx) : (blockDot.lhsIdx j u 1).val = (u ⟨0, by decide⟩).val :=
  blockDot.lhsIdx_val_of_single rfl j u
/-- The right operand's row is the result's column. -/
theorem rhs_row (j : S512x1024.Idx) (u : blockDot.contr.Idx) : (blockDot.rhsIdx j u 0).val = (j 1).val := by
  unfold DotDims.rhsIdx
  rw [dif_neg (show ¬(0 : Fin S1024x1024.rank) ∈ blockDot.rhsBatch by decide),
    dif_pos (show (0 : Fin S1024x1024.rank) ∈ blockDot.rhsNonContracting by decide)]
  rfl
/-- The right operand's column is the contraction index. -/
theorem rhs_col (j : S512x1024.Idx) (u : blockDot.contr.Idx) : (blockDot.rhsIdx j u 1).val = (u ⟨0, by decide⟩).val :=
  blockDot.rhsIdx_val_of_single rfl j u

/-- The body's stored value at (p, q): the blocks' rows p and q contracted over the 1024 columns. -/
theorem pay_apply (a : Vec Ideal S512x1024 .bf16) (b : Vec Ideal S1024x1024 .bf16) (p : Fin 512) (q : Fin 1024) :
    k0_pay1 (F := Ideal) a b (ix2 p q) = ∑ k : Fin 1024, a (ix2 p k) * b (ix2 q k) := by
  unfold k0_pay1
  rw [shapeCast_self, shapeCast_self]
  simp only [matmul]
  rw [Ideal.matmul_constant_zero_apply, ← Equiv.sum_comp (contrEquiv1 blockDot 1024 rfl rfl).symm]
  refine Finset.sum_congr rfl fun k _ => ?_
  have hk := contrEquiv1_symm_val blockDot 1024 rfl rfl k
  have el : blockDot.lhsIdx (ix2 p q) ((contrEquiv1 blockDot 1024 rfl rfl).symm k) = ix2 p k := funext fun d => Fin.ext (by
    match d with
    | ⟨0, _⟩ => exact lhs_row _ _
    | ⟨1, _⟩ => exact (lhs_col _ _).trans hk)
  have er : blockDot.rhsIdx (ix2 p q) ((contrEquiv1 blockDot 1024 rfl rfl).symm k) = ix2 q k := funext fun d => Fin.ext (by
    match d with
    | ⟨0, _⟩ => exact rhs_row _ _
    | ⟨1, _⟩ => exact (rhs_col _ _).trans hk)
  rw [el, er]

end Cert.KernelIdeal.Hand

end
-- ==== Proof.Blocks.lean ====
/-
  From grid points to the whole product. The grid is 16 × 4: point (i, j) reads rows 512 i … 512 i + 511 of the flattened
  activations a (all 1024 columns), rows 1024 j … 1024 j + 1023 of the weights w (all 1024 columns), and writes the
  [512, 1024] block (i, j) of the [8192, 4096] product. Entry (p, q) of what it writes is Σ_h a[512 i + p, h] · w[1024 j + q, h],
  which is entry (512 i + p, 1024 j + q) of the row-by-row contraction `Linear.rows a w`: every written block is a block
  of that one matrix. The 64 blocks tile the product — entry (r, o) lies in the block of point (r / 512, o / 1024) — so after
  the last point the product array holds `Linear.rows a w` everywhere.
-/
import proofs.«114056_j46909632807570_1_alg».proof.Proof.Gen.KernelIdeal.Frame
import proofs.«114056_j46909632807570_1_alg».proof.Proof.Payload
import proofs.«114056_j46909632807570_1_alg».proof.Proof.Spec
import Idealize.ShloMosaic.Lib.Pipeline.Value
import Idealize.ShloMosaic.Lib.Tactic

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- Which blocks a grid point touches, relative to the block (i, j) it writes: the activations' block (i, 0), the weights'
    block (j, 0); and i ≤ 15, j ≤ 3. Decided over the 64 points. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 3 :=
  (by decide +kernel : ∀ t : Fin grid0.N, _)

/-- Every block (i, j) of the 16 × 4 tiling of the product is written by some grid point. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- The activations' block at a point, entry (p, k), is a[512 i + p, k], where i is the written block's row index. -/
theorem iblk0_apply (c : Dev nD) (t : Fin cfg0.N) (p : Fin 512) (k : Fin 1024) (i : S8192x1024.Idx)
    (h0 : (i 0).val = win0_2.index t (0 : Fin 2) * 512 + p.val) (h1 : (i 1).val = k.val) :
    (iblk m c 0 t : Vec Ideal S512x1024 .bf16) (ix2 p k) = (V m c main_v1 : S8192x1024.Idx → EReal) i := by
  obtain ⟨e0, e1, e2, e3, e4, e5⟩ := idx_facts t
  unfold iblk
  rw [View.read_apply]
  show V m c main_v1 _ = V m c main_v1 _
  refine congrArg (V m c main_v1) ?_
  funext a
  apply Fin.ext
  match a with
  | ⟨0, _⟩ => show win0_0.index t (0 : Fin 2) * 512 + 1 * p.val = (i 0).val; rw [e0, h0]; omega
  | ⟨1, _⟩ => show win0_0.index t (1 : Fin 2) * 1024 + 1 * k.val = (i 1).val; rw [e1, h1]; omega

/-- The weights' block at a point, entry (q, k), is w[1024 j + q, k], where j is the written block's column index. -/
theorem iblk1_apply (c : Dev nD) (t : Fin cfg0.N) (q : Fin 1024) (k : Fin 1024) (i : S4096x1024.Idx)
    (h0 : (i 0).val = win0_2.index t (1 : Fin 2) * 1024 + q.val) (h1 : (i 1).val = k.val) :
    (iblk m c 1 t : Vec Ideal S1024x1024 .bf16) (ix2 q k) = (V m c main_v2 : S4096x1024.Idx → EReal) i := by
  obtain ⟨e0, e1, e2, e3, e4, e5⟩ := idx_facts t
  unfold iblk
  rw [View.read_apply]
  show V m c main_v2 _ = V m c main_v2 _
  refine congrArg (V m c main_v2) ?_
  funext a
  apply Fin.ext
  match a with
  | ⟨0, _⟩ => show win0_1.index t (0 : Fin 2) * 1024 + 1 * q.val = (i 0).val; rw [e2, h0]; omega
  | ⟨1, _⟩ => show win0_1.index t (1 : Fin 2) * 1024 + 1 * k.val = (i 1).val; rw [e3, h1]; omega

/-- Entry (p, q) of what a point computes is the entry of the whole product that sits at (p, q) of the point's block:
    the two sums over h have the same terms. -/
theorem point_entry (c : Dev nD) (t : Fin cfg0.N) (j : S512x1024.Idx) :
    k0_pay1 (F := Ideal) (iblk m c 0 t) (iblk m c 1 t) j
      = Cert.Linear.rows (V m c main_v1) (V m c main_v2) (((cfg0.win 2).blk t).view.emb j) := by
  obtain ⟨p, q, rfl⟩ : ∃ (p : Fin 512) (q : Fin 1024), j = ix2 p q := ⟨j 0, j 1, eq_ix2 j⟩
  refine (pay_apply (iblk m c 0 t) (iblk m c 1 t) p q).trans ?_
  unfold Cert.Linear.rows
  refine Finset.sum_congr rfl fun k _ => ?_
  refine congrArg₂ (· * ·) ?_ ?_
  · refine iblk0_apply m c t p k _ ?_ rfl
    show win0_2.index t (0 : Fin 2) * 512 + 1 * p.val = _
    omega
  · refine iblk1_apply m c t q k _ ?_ rfl
    show win0_2.index t (1 : Fin 2) * 1024 + 1 * q.val = _
    omega

/-- What a point writes back is its block of the whole product. -/
theorem flushed_eq (c : Dev nD) (t : Fin cfg0.N) :
    (dats m 0 c).flushed 2 t = ((cfg0.win 2).blk t).view.read (Elt Ideal) (Cert.Linear.rows (V m c main_v1) (V m c main_v2)) := by
  show (cfg0.win 2).cut (grid0.coords t) ((dats m 0 c).after 2 t) = _
  rw [after0_2]
  unfold out0_2
  rw [View.canon_unit_zero hz]
  simp only [View.ld_unit_zero (S := S512x1024) hz, View.ld_unit_zero (S := S1024x1024) hz]
  funext j
  exact point_entry m c t j

/-- An entry of the product lies in a point's block iff each coordinate lies in the block's range on its axis. -/
theorem mem_blk (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- The blocks tile the product: entry (r, o) is in the block of the point writing block (r / 512, o / 1024). -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the last grid point the product array is the row-by-row contraction of the two operand arrays. -/
theorem product_eq (c : Dev nD) : (dats m 0 c).arrAt 2 cfg0.N = Cert.Linear.rows (V m c main_v1) (V m c main_v2) :=
  (dats m 0 c).arrAt_eq_of_cover 2 _ (fun t _ => flushed_eq m c t) cover

end Cert.KernelIdeal.Hand

end
-- ==== Proof.HostSides.lean ====
/-
  The host operations around the grid. Before it: the activations are flattened from [2048, 4, 1024] to [8192, 1024]
  (row 4 s + b), and both operands change float format — the identity on extended reals. After it: the [8192, 4096] product
  is unflattened to [2048, 4, 4096]. So the grid's operands are the flattened activations and the weights themselves, and
  the program's result is the unflattened product.
-/
import proofs.«114056_j46909632807570_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grid's first operand is the activations flattened to rows. -/
theorem V_v1 (c : Dev nD) : (V m c main_v1 : S8192x1024.Idx → EReal)
    = shapeCast S8192x1024 (m ((c : Thread nD τ).loc main_arg0)) shapeCasts_S2048x4x1024_S8192x1024 := by
  show StableHlo.after hostOps0 (fun b => m (c, b)) (Proc.devRef .tc main_v1) = _
  after_results
  rfl

/-- The grid's second operand is the weights. -/
theorem V_v2 (c : Dev nD) : (V m c main_v2 : S4096x1024.Idx → EReal) = m ((c : Thread nD τ).loc main_arg1) := by
  show StableHlo.after hostOps0 (fun b => m (c, b)) (Proc.devRef .tc main_v2) = _
  after_results
  rfl

/-- The program's result is the product array as the grid leaves it, unflattened. -/
theorem tail_v4 (c : Dev nD) : Pipeline.afterTail₀ cfgs (dats m) 0 (V0 m) [hostOps1] c main_v4
    = shapeCast S2048x4x4096 ((dats m 0 c).arrAt 2 cfg0.N) shapeCasts_S8192x4096_S2048x4x4096 := by
  unfold Pipeline.afterTail₀
  show StableHlo.after hostOps1 _ (Proc.devRef .tc main_v4) = _
  after_results
  exact congrArg (fun A : S8192x4096.Idx → EReal => shapeCast S2048x4x4096 A shapeCasts_S8192x4096_S2048x4x4096)
    (Pipeline.withArrays_arr spec0 launch0.win.arr_inj c (V0 m c) (fun w => (dats m 0 c).arrAt w (cfgs 0).N) 2)

end Cert.KernelIdeal.Hand

end
-- ==== Proof.KernelRun.lean ====
/-
  The kernel program's run, read as a value: every execution ends with the result array at the linear layer of the two
  argument arrays, Σ_h x[s, b, h] · w[o, h] at (s, b, o), and the arguments unchanged. The result is the unflattened product
  of the flattened activations with the weights, and flattening, contracting row by row and unflattening is the linear layer.
-/
import proofs.«114056_j46909632807570_1_alg».proof.Proof.Blocks
import proofs.«114056_j46909632807570_1_alg».proof.Proof.HostSides

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The program's result is the linear layer of its arguments. -/
theorem result_eq (c : Dev nD) : Pipeline.afterTail₀ cfgs (dats m) 0 (V0 m) [hostOps1] c main_v4
    = Cert.Linear.linear (m ((c : Thread nD τ).loc main_arg0)) (m ((c : Thread nD τ).loc main_arg1)) := by
  rw [tail_v4, product_eq, V_v1, V_v2]
  exact Cert.Linear.unflatten_rows _ _ _ _

/-- Every weakly fair execution terminates with the result at the linear layer of the arguments and the arguments as
    they were. -/
theorem run : θ_run defs (onTc (τ := τ) (main (F := Ideal))) ⟨m, fun _ => 0, ρ⟩ fun r => ∀ c : Dev nD,
      r.2.mem ((c : Thread nD τ).loc main_v4) = Cert.Linear.linear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.lean ====
/-
  A linear layer without bias, out[s, b, o] = Σ_h x[s, b, h] · w[o, h] over x : [2048, 4, 1024] and w : [4096, 1024], computed
  two ways and compared over the extended reals.

  The reference contracts x's last axis with w's last axis in one operation. The kernel flattens (s, b) to the row
  r = 4 s + b, tiles the [8192, 4096] product a · wᵀ into 16 × 4 blocks of [512, 1024], computes each block as the product of
  512 rows of a with 1024 rows of w over all 1024 columns at once, and unflattens the rows. Entry (r, o) of the tiled
  product is Σ_h a[r, h] · w[o, h] with a[4 s + b, h] = x[s, b, h]: the same sum, term by term and in the same order of h, as
  the reference's entry (s, b, o). The change of float format on the way into the block product is the identity on
  extended reals, and the accumulator starts at zero. No law of arithmetic beyond 0 + t = t is used, so the inputs'
  finiteness is never needed.

  Modules: Spec (the two forms of the sum and their agreement), RefIsLinear (the reference's operation is the sum),
  Payload (a block product read at an entry), Blocks (each written block is a block of the whole product; the blocks tile
  it), HostSides (the flattenings around the grid), KernelRun (the kernel's result is the sum). The kernel has no rewrite
  in its idealization, so there is nothing to preserve beyond the program's own text.
-/
import proofs.«114056_j46909632807570_1_alg».proof.Defs
import proofs.«114056_j46909632807570_1_alg».proof.Proof.Gen.Kernel
import proofs.«114056_j46909632807570_1_alg».proof.Proof.Gen.Kernel.Frame
import proofs.«114056_j46909632807570_1_alg».proof.Proof.Gen.KernelIdeal
import proofs.«114056_j46909632807570_1_alg».proof.Proof.Gen.KernelIdeal.Frame
import proofs.«114056_j46909632807570_1_alg».proof.Proof.Gen.ReferenceIdeal
import proofs.«114056_j46909632807570_1_alg».proof.Proof.Gen.ReferenceIdeal.Run
import proofs.«114056_j46909632807570_1_alg».proof.Proof.Gen.ReferenceIdeal.Read
import proofs.«114056_j46909632807570_1_alg».proof.Proof.Gen.Pre_finite_inputs
import proofs.«114056_j46909632807570_1_alg».proof.Proof.RefIsLinear
import proofs.«114056_j46909632807570_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the linear layer of the (agreeing) arguments: the kernel by its tiled product,
    the reference by its one contraction. -/
theorem algebraic : Cert.algebraic_KernelIdeal_ReferenceIdeal := by
  intro m ρ m' ρ' _ hagree
  refine ⟨fun c => Cert.Linear.linear (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.val_eq_linear, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
